-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x64 : Shape := ⟨3, ![4, 4096, 64]⟩
abbrev S_ : Shape := ⟨0, ![]⟩

class Facts : Prop where
  bcast_S_S4x4096x64 : S_.BroadcastsInDim S4x4096x64 (![] : Fin 0 → Fin S4x4096x64.rank)
  reducesTo_S4x4096x64_S_d0_1_2 : S4x4096x64.ReducesTo [0, 1, 2] S_
  h_S_ : 0 < S_.numel

variable [Facts]

def fn {F : FTy → Type} [FloatOps F] (main_arg0 : FVec F S4x4096x64 .f32) (main_arg1 : FVec F S4x4096x64 .f32) (main_arg2 : FVec F S4x4096x64 .f32) : IVec S_ 1 :=
  let main_v0 : FVec F S4x4096x64 .f32 := Host.absf main_arg0
  let main_cst : FVec F S_ .f32 := constant S_ .f32 0x7F800000#32
  let main_v1 : FVec F S4x4096x64 .f32 := broadcastInDim S4x4096x64 ![] bcast_S_S4x4096x64 main_cst
  let main_v2 : IVec S4x4096x64 1 := cmpf .olt main_v0 main_v1
  let main_c : IVec S_ 1 := constantI S_ 1 1#1
  let main_v3 : IVec S_ 1 := (fun x v => Host.reduce IntOp.andi x v reducesTo_S4x4096x64_S_d0_1_2 h_S_) main_v2 main_c
  let main_v4 : FVec F S4x4096x64 .f32 := Host.absf main_arg1
  let main_cst_0 : FVec F S_ .f32 := constant S_ .f32 0x7F800000#32
  let main_v5 : FVec F S4x4096x64 .f32 := broadcastInDim S4x4096x64 ![] bcast_S_S4x4096x64 main_cst_0
  let main_v6 : IVec S4x4096x64 1 := cmpf .olt main_v4 main_v5
  let main_c_1 : IVec S_ 1 := constantI S_ 1 1#1
  let main_v7 : IVec S_ 1 := (fun x v => Host.reduce IntOp.andi x v reducesTo_S4x4096x64_S_d0_1_2 h_S_) main_v6 main_c_1
  let main_v8 : IVec S_ 1 := andi main_v3 main_v7
  let main_v9 : FVec F S4x4096x64 .f32 := Host.absf main_arg2
  let main_cst_2 : FVec F S_ .f32 := constant S_ .f32 0x7F800000#32
  let main_v10 : FVec F S4x4096x64 .f32 := broadcastInDim S4x4096x64 ![] bcast_S_S4x4096x64 main_cst_2
  let main_v11 : IVec S4x4096x64 1 := cmpf .olt main_v9 main_v10
  let main_c_3 : IVec S_ 1 := constantI S_ 1 1#1
  let main_v12 : IVec S_ 1 := (fun x v => Host.reduce IntOp.andi x v reducesTo_S4x4096x64_S_d0_1_2 h_S_) main_v11 main_c_3
  let main_v13 : IVec S_ 1 := andi main_v8 main_v12
  main_v13
-- ==== Kernel.lean ====
abbrev S4x4096x64 : Shape := ⟨3, ![4, 4096, 64]⟩
abbrev S1x512x64 : Shape := ⟨3, ![1, 512, 64]⟩
abbrev S1x4096x64 : Shape := ⟨3, ![1, 4096, 64]⟩
abbrev S512x64 : Shape := ⟨2, ![512, 64]⟩
abbrev S4096x64 : Shape := ⟨2, ![4096, 64]⟩
abbrev S512x4096 : Shape := ⟨2, ![512, 4096]⟩
abbrev S512 : Shape := ⟨1, ![512]⟩
abbrev S512x1 : Shape := ⟨2, ![512, 1]⟩

abbrev nBuf : Space → Nat
  | .hbm => 4
  | .vmem => 8
  | .smem => 0
  | _ => 0

abbrev bufTy : (tb : Table) → Fin (tcTables nBuf tb) → BufTy
  | .hbm, ⟨0, _⟩ => ⟨S4x4096x64, .f32⟩
  | .hbm, ⟨1, _⟩ => ⟨S4x4096x64, .f32⟩
  | .hbm, ⟨2, _⟩ => ⟨S4x4096x64, .f32⟩
  | .hbm, ⟨3, _⟩ => ⟨S4x4096x64, .f32⟩
  | .local _ .vmem, ⟨0, _⟩ => ⟨S1x512x64, .f32⟩
  | .local _ .vmem, ⟨1, _⟩ => ⟨S1x512x64, .f32⟩
  | .local _ .vmem, ⟨2, _⟩ => ⟨S1x4096x64, .f32⟩
  | .local _ .vmem, ⟨3, _⟩ => ⟨S1x4096x64, .f32⟩
  | .local _ .vmem, ⟨4, _⟩ => ⟨S1x4096x64, .f32⟩
  | .local _ .vmem, ⟨5, _⟩ => ⟨S1x4096x64, .f32⟩
  | .local _ .vmem, ⟨6, _⟩ => ⟨S1x512x64, .f32⟩
  | .local _ .vmem, ⟨7, _⟩ => ⟨S1x512x64, .f32⟩
  | _, _ => ⟨S4x4096x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4096x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x4096x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  inb_S1x512x64_S1x512x64_0_0_0 : ∀ a, (![0, 0, 0] : Fin 3 → Nat) a + S1x512x64.size a ≤ S1x512x64.size a
  h_S1x512x64 : 0 < S1x512x64.numel
  shapeCasts_S1x512x64_S512x64 : S1x512x64.ShapeCasts S512x64
  inb_S1x4096x64_S1x4096x64_0_0_0 : ∀ a, (![0, 0, 0] : Fin 3 → Nat) a + S1x4096x64.size a ≤ S1x4096x64.size a
  h_S1x4096x64 : 0 < S1x4096x64.numel
  shapeCasts_S1x4096x64_S4096x64 : S1x4096x64.ShapeCasts S4096x64
  reduces_S512x4096_S512 : S512x4096.Reduces [1] S512
  shapeCasts_S512_S512x1 : S512.ShapeCasts S512x1
  broadcasts_S512x1_S512x4096 : S512x1.Broadcasts S512x4096
  shapeCasts_S512x64_S1x512x64 : S512x64.ShapeCasts S1x512x64
  dot_S512x64_S4096x64_S512x4096_1_1_0_0_n_n_wf : DotDims.WF S512x64 S4096x64 S512x4096 [1] [1] [0] [0] [] []
  dot_S512x4096_S4096x64_S512x64_1_0_0_1_n_n_wf : DotDims.WF S512x4096 S4096x64 S512x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x64.size a ≤ S4x4096x64.size a
  hwx0_0 : ∀ i : grid0.Coords, EltTy.bits .f32 = 32 ∨ (Rect.block (s := S4x4096x64) S1x512x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x4096x64.size a ≤ S4x4096x64.size a
  hwx0_1 : ∀ i : grid0.Coords, EltTy.bits .f32 = 32 ∨ (Rect.block (s := S4x4096x64) S1x4096x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x4096x64.size a ≤ S4x4096x64.size a
  hwx0_2 : ∀ i : grid0.Coords, EltTy.bits .f32 = 32 ∨ (Rect.block (s := S4x4096x64) S1x4096x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x64.size a ≤ S4x4096x64.size a
  hwx0_3 : ∀ i : grid0.Coords, EltTy.bits .f32 = 32 ∨ (Rect.block (s := S4x4096x64) S1x512x64.size (cc0_transform_3 i) (hinb0_3 i)).WholeWords (EltTy.packing .f32)

variable [Facts₀]

def dot_S512x64_S4096x64_S512x4096_1_1_0_0_n_n : DotDims S512x64 S4096x64 S512x4096 where
  lhsContracting := [1]
  rhsContracting := [1]
  lhsNonContracting := [0]
  rhsNonContracting := [0]
  lhsBatch := []
  rhsBatch := []
  wf := dot_S512x64_S4096x64_S512x4096_1_1_0_0_n_n_wf
def dot_S512x4096_S4096x64_S512x64_1_0_0_1_n_n : DotDims S512x4096 S4096x64 S512x64 where
  lhsContracting := [1]
  rhsContracting := [0]
  lhsNonContracting := [0]
  rhsNonContracting := [1]
  lhsBatch := []
  rhsBatch := []
  wf := dot_S512x4096_S4096x64_S512x64_1_0_0_1_n_n_wf

abbrev win0_0 : Pipeline.Window sig grid0 :=
  Pipeline.Window.ofSpec (Memref.whole main_arg0) S1x512x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x4096x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x4096x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x512x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4x4096x64 : Shape := ⟨3, ![4, 4096, 64]⟩
abbrev S_ : Shape := ⟨0, ![]⟩
abbrev S4x4096x4096 : Shape := ⟨3, ![4, 4096, 4096]⟩
abbrev S4x4096 : Shape := ⟨2, ![4, 4096]⟩
abbrev S4x4096x1 : Shape := ⟨3, ![4, 4096, 1]⟩

abbrev nBuf : Space → Nat
  | .hbm => 23
  | .vmem => 0
  | .smem => 0
  | _ => 0

abbrev bufTy : (tb : Table) → Fin (tcTables nBuf tb) → BufTy
  | .hbm, ⟨0, _⟩ => ⟨S4x4096x64, .f32⟩
  | .hbm, ⟨1, _⟩ => ⟨S4x4096x64, .f32⟩
  | .hbm, ⟨2, _⟩ => ⟨S4x4096x64, .f32⟩
  | .hbm, ⟨3, _⟩ => ⟨S_, .f32⟩
  | .hbm, ⟨4, _⟩ => ⟨S_, .f32⟩
  | .hbm, ⟨5, _⟩ => ⟨S4x4096x4096, .f32⟩
  | .hbm, ⟨6, _⟩ => ⟨S4x4096x4096, .f32⟩
  | .hbm, ⟨7, _⟩ => ⟨S4x4096x4096, .f32⟩
  | .hbm, ⟨8, _⟩ => ⟨S_, .f32⟩
  | .hbm, ⟨9, _⟩ => ⟨S4x4096, .f32⟩
  | .hbm, ⟨10, _⟩ => ⟨S_, .f32⟩
  | .hbm, ⟨11, _⟩ => ⟨S4x4096, .f32⟩
  | .hbm, ⟨12, _⟩ => ⟨S4x4096, .f32⟩
  | .hbm, ⟨13, _⟩ => ⟨S4x4096x1, .f32⟩
  | .hbm, ⟨14, _⟩ => ⟨S4x4096x4096, .f32⟩
  | .hbm, ⟨15, _⟩ => ⟨S4x4096x4096, .f32⟩
  | .hbm, ⟨16, _⟩ => ⟨S4x4096x4096, .f32⟩
  | .hbm, ⟨17, _⟩ => ⟨S_, .f32⟩
  | .hbm, ⟨18, _⟩ => ⟨S4x4096, .f32⟩
  | .hbm, ⟨19, _⟩ => ⟨S4x4096x1, .f32⟩
  | .hbm, ⟨20, _⟩ => ⟨S4x4096x4096, .f32⟩
  | .hbm, ⟨21, _⟩ => ⟨S4x4096x4096, .f32⟩
  | .hbm, ⟨22, _⟩ => ⟨S4x4096x64, .f32⟩
  | _, _ => ⟨S4x4096x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_2 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩

abbrev nD : Nat := 1
abbrev τ : Topo := Topo.v7x

variable {F : FTy → Type} [FloatOps F]

class Facts₀ : Prop where
  bcast_S_S4x4096x4096 : S_.BroadcastsInDim S4x4096x4096 (![] : Fin 0 → Fin S4x4096x4096.rank)
  reducesTo_S4x4096x4096_S4x4096_d2 : S4x4096x4096.ReducesTo [2] S4x4096
  h_S_ : 0 < S_.numel
  bcast_S_S4x4096 : S_.BroadcastsInDim S4x4096 (![] : Fin 0 → Fin S4x4096.rank)
  bcast_S4x4096_S4x4096x1_0_1 : S4x4096.BroadcastsInDim S4x4096x1 (![0, 1] : Fin 2 → Fin S4x4096x1.rank)
  bcast_S4x4096x1_S4x4096x4096_0_1_2 : S4x4096x1.BroadcastsInDim S4x4096x4096 (![0, 1, 2] : Fin 3 → Fin S4x4096x4096.rank)
  dot_S4x4096x64_S4x4096x64_S4x4096x4096_2_2_1_1_0_0_wf : DotDims.WF S4x4096x64 S4x4096x64 S4x4096x4096 [2] [2] [1] [1] [0] [0]
  dot_S4x4096x4096_S4x4096x64_S4x4096x64_2_1_1_2_0_0_wf : DotDims.WF S4x4096x4096 S4x4096x64 S4x4096x64 [2] [1] [1] [2] [0] [0]

variable [Facts₀]

def dot_S4x4096x64_S4x4096x64_S4x4096x4096_2_2_1_1_0_0 : DotDims S4x4096x64 S4x4096x64 S4x4096x4096 where
  lhsContracting := [2]
  rhsContracting := [2]
  lhsNonContracting := [1]
  rhsNonContracting := [1]
  lhsBatch := [0]
  rhsBatch := [0]
  wf := dot_S4x4096x64_S4x4096x64_S4x4096x4096_2_2_1_1_0_0_wf
def dot_S4x4096x4096_S4x4096x64_S4x4096x64_2_1_1_2_0_0 : DotDims S4x4096x4096 S4x4096x64 S4x4096x64 where
  lhsContracting := [2]
  rhsContracting := [1]
  lhsNonContracting := [1]
  rhsNonContracting := [2]
  lhsBatch := [0]
  rhsBatch := [0]
  wf := dot_S4x4096x4096_S4x4096x64_S4x4096x64_2_1_1_2_0_0_wf

class Facts : Prop extends Facts₀ where

variable [Facts]
-- ==== Proof.RowAttention.lean ====
/-
  The specification: softmax attention, one query row at a time.

  For a query row Q (64 numbers), keys K and values V (4096 rows of 64 numbers each), all extended reals:
    score m   = (the sum over d of Q d · K m d) · 64
    top       = the maximum of the scores over m, starting from minus infinity
    weight m  = exp (score m − top)
    out d     = the sum over m of (weight m / the sum over m' of weight m') · V m d
  The whole result, over arrays of shape [4, 4096, 64], at (b, n, d) is the row function of row n of batch b of the
  queries against all keys and values of batch b. Both programs compute exactly this function; nothing here needs the
  inputs to be finite, because the two programs apply the same operations to the same operands in the same grouping.
-/
import Idealize.ShloMosaic.PureOps.Ideal
import Idealize.ShloMosaic.Lib.ValueIdx

noncomputable section

open scoped BigOperators

namespace Cert.Attn

open Idealize.ShloMosaic Idealize.ShloMosaic.ValueIdx

/-- The scaled score of the query row against key m. -/
def rowScore (Q : Fin 64 → EReal) (K : Fin 4096 → Fin 64 → EReal) (m : Fin 4096) : EReal :=
  (∑ d : Fin 64, Q d * K m d) * Ideal.ofBits .f32 0x42800000#32

/-- The largest score of the row, from minus infinity. -/
def rowTop (Q : Fin 64 → EReal) (K : Fin 4096 → Fin 64 → EReal) : EReal :=
  (Finset.univ : Finset (Fin 4096)).fold max (Ideal.ofBits .f32 0xFF800000#32) (rowScore Q K)

/-- The unnormalised weight of key m: the exponential of its score below the top. -/
def rowWeight (Q : Fin 64 → EReal) (K : Fin 4096 → Fin 64 → EReal) (m : Fin 4096) : EReal :=
  Ideal.exp (rowScore Q K m - rowTop Q K)

/-- The row's result at feature d: the values averaged by the normalised weights. -/
def rowOut (Q : Fin 64 → EReal) (K V : Fin 4096 → Fin 64 → EReal) (d : Fin 64) : EReal :=
  ∑ m : Fin 4096, Ideal.div (rowWeight Q K m) (∑ m' : Fin 4096, rowWeight Q K m') * V m d

/-- Arrays of shape [4, 4096, 64] of extended reals. -/
abbrev Arr := (⟨3, ![4, 4096, 64]⟩ : Shape).Idx → EReal

/-- Attention over the whole arrays: at (b, n, d), row n of batch b of the queries against batch b of the keys and values. -/
def attention (q k v : Arr) : Arr := fun i =>
  rowOut (fun d => q (ix3 (i 0) (i 1) d)) (fun m d => k (ix3 (i 0) m d)) (fun m d => v (ix3 (i 0) m d)) (i 2)

end Cert.Attn

end
-- ==== Proof.LibDotNT.lean ====
/-
  The dimension numbers of a matrix product with the right operand transposed — both operands contracted on their last axis,
  no batch axes — read at an index. At result position (i, q) and contraction position k the left operand is read at (i, k) and the
  right at (q, k); the contraction shape has one axis of the shared extent, so the sum over it is the ordinary sum over k of
  l(i, k) · r(q, k): a row of the left against a row of the right. A matrix unit product of that form, at the ideal instance, reads as
  its accumulator plus that sum, whatever the extents.
-/
import Idealize.ShloMosaic.PureOps.Ideal.Laws
import Idealize.ShloMosaic.Lib.ValueIdx

noncomputable section

open scoped BigOperators

namespace Idealize.ShloMosaic.DotNT

open Idealize.ShloMosaic Idealize.ShloMosaic.ValueIdx

variable {M K N : Nat} (d : DotDims ⟨2, ![M, K]⟩ ⟨2, ![N, K]⟩ ⟨2, ![M, N]⟩)

/-- The dimension numbers: [1] × [1] contracted, [0] and [0] kept, no batch axes. -/
structure IsNT : Prop where
  lc : d.lhsContracting = [1]
  rc : d.rhsContracting = [1]
  ln : d.lhsNonContracting = [0]
  rn : d.rhsNonContracting = [0]
  lb : d.lhsBatch = []
  rb : d.rhsBatch = []

variable {d}

theorem rank_one (h : IsNT d) : d.contr.rank = 1 := by rw [d.rank_contr, h.lc]; rfl

theorem size_zero (h : IsNT d) : d.contr.size ⟨0, by rw [rank_one h]; exact Nat.one_pos⟩ = K := by
  rw [d.size_contr 0 (by rw [h.lc]; exact Nat.one_pos)]
  have e : d.lhsContracting[0]'(by rw [h.lc]; exact Nat.one_pos) = (1 : Fin 2) := by simp [h.lc]
  rw [e]; rfl

/-- The contraction positions are the numbers below the shared extent. -/
def pos (h : IsNT d) : d.contr.Idx ≃ Fin K := contrEquiv1 d K (rank_one h) (size_zero h)

private theorem val_congr {n : Nat} {s : Fin n → Nat} (j : (i : Fin n) → Fin (s i)) :
    ∀ (p q : Nat) (hp : p < n) (hq : q < n), p = q → (j ⟨p, hp⟩).val = (j ⟨q, hq⟩).val :=
  fun p q hp hq e => by subst e; rfl

theorem lhsIdx_row (h : IsNT d) (j : (⟨2, ![M, N]⟩ : Shape).Idx) (k : d.contr.Idx) :
    (d.lhsIdx j k 0).val = (j 0).val := by
  have hb : (0 : Fin 2) ∉ d.lhsBatch := by rw [h.lb]; exact List.not_mem_nil
  have hn : (0 : Fin 2) ∈ d.lhsNonContracting := by rw [h.ln]; exact List.mem_singleton.mpr rfl
  unfold DotDims.lhsIdx
  rw [dif_neg hb, dif_pos hn]
  simp only [Fin.val_cast]
  exact val_congr j _ _ _ _ (by simp [h.lb, h.ln])

theorem lhsIdx_col (h : IsNT d) (j : (⟨2, ![M, N]⟩ : Shape).Idx) (k : d.contr.Idx) :
    (d.lhsIdx j k 1).val = (pos h k).val := by
  rw [d.lhsIdx_val_of_single h.lc j k]; rfl

theorem rhsIdx_row (h : IsNT d) (j : (⟨2, ![M, N]⟩ : Shape).Idx) (k : d.contr.Idx) :
    (d.rhsIdx j k 0).val = (j 1).val := by
  have hb : (0 : Fin 2) ∉ d.rhsBatch := by rw [h.rb]; exact List.not_mem_nil
  have hn : (0 : Fin 2) ∈ d.rhsNonContracting := by rw [h.rn]; exact List.mem_singleton.mpr rfl
  unfold DotDims.rhsIdx
  rw [dif_neg hb, dif_pos hn]
  simp only [Fin.val_cast]
  exact val_congr j _ _ _ _ (by simp [h.lb, h.ln, h.rn])

theorem rhsIdx_col (h : IsNT d) (j : (⟨2, ![M, N]⟩ : Shape).Idx) (k : d.contr.Idx) :
    (d.rhsIdx j k 1).val = (pos h k).val := by
  rw [d.rhsIdx_val_of_single h.rc j k]; rfl

theorem lhsIdx_eq (h : IsNT d) (j : (⟨2, ![M, N]⟩ : Shape).Idx) (k : d.contr.Idx) :
    d.lhsIdx j k = ix2 (j 0) (pos h k) := by
  funext a; apply Fin.ext
  match a with
  | ⟨0, _⟩ => exact lhsIdx_row h j k
  | ⟨1, _⟩ => exact lhsIdx_col h j k

theorem rhsIdx_eq (h : IsNT d) (j : (⟨2, ![M, N]⟩ : Shape).Idx) (k : d.contr.Idx) :
    d.rhsIdx j k = ix2 (j 1) (pos h k) := by
  funext a; apply Fin.ext
  match a with
  | ⟨0, _⟩ => exact rhsIdx_row h j k
  | ⟨1, _⟩ => exact rhsIdx_col h j k

/-- THE CONTRACTION SUM: the sum over k below the shared extent of l(i, k) · r(q, k). -/
theorem sum_eq (h : IsNT d) (l : (⟨2, ![M, K]⟩ : Shape).Idx → EReal) (r : (⟨2, ![N, K]⟩ : Shape).Idx → EReal)
    (j : (⟨2, ![M, N]⟩ : Shape).Idx) :
    ∑ k : d.contr.Idx, l (d.lhsIdx j k) * r (d.rhsIdx j k) = ∑ k : Fin K, l (ix2 (j 0) k) * r (ix2 (j 1) k) := by
  rw [← Equiv.sum_comp (pos h) (fun k : Fin K => l (ix2 (j 0) k) * r (ix2 (j 1) k))]
  exact Finset.sum_congr rfl fun k _ => by rw [lhsIdx_eq h j k, rhsIdx_eq h j k]; rfl

/-- A matrix unit product of that form into any accumulator, at the ideal instance and at an index. -/
theorem matmul_apply (h : IsNT d) (prec : Option ContractPrecision) {φ₁ φ₂ : FTy}
    (l : FVec Ideal ⟨2, ![M, K]⟩ φ₁) (r : FVec Ideal ⟨2, ![N, K]⟩ φ₂) (acc : FVec Ideal ⟨2, ![M, N]⟩ .f32) (j : (⟨2, ![M, N]⟩ : Shape).Idx) :
    matmul d prec l r acc j = acc j + ∑ k : Fin K, l (ix2 (j 0) k) * r (ix2 (j 1) k) :=
  (Ideal.matmul_apply d prec l r acc j).trans (congrArg (acc j + ·) (sum_eq h l r j))

/-- Into a zero accumulator: just the sum. -/
theorem matmul_zero_apply (h : IsNT d) (prec : Option ContractPrecision) {φ₁ φ₂ : FTy}
    (l : FVec Ideal ⟨2, ![M, K]⟩ φ₁) (r : FVec Ideal ⟨2, ![N, K]⟩ φ₂) (j : (⟨2, ![M, N]⟩ : Shape).Idx) :
    matmul d prec l r (constant (F := Ideal) ⟨2, ![M, N]⟩ .f32 0x00000000#32) j = ∑ k : Fin K, l (ix2 (j 0) k) * r (ix2 (j 1) k) :=
  (Ideal.matmul_constant_zero_apply d prec l r j).trans (sum_eq h l r j)

end Idealize.ShloMosaic.DotNT

end
-- ==== Proof.LibDotPlain.lean ====
/-
  The dimension numbers of a plain matrix product — the left operand contracted on its last axis, the right on its
  first, no batch axes — read at an index. At result position (i, q) and contraction position k the left operand is
  read at (i, k) and the right at (k, q); the contraction shape has one axis of the shared extent, so the sum over it
  is the ordinary sum over k of l(i, k) · r(k, q). Both a tiled matrix unit product into a zero accumulator and a host
  dot product then read, at the ideal instance, as that sum, whatever the extents.
-/
import Idealize.ShloMosaic.PureOps.Ideal.Laws
import Idealize.ShloMosaic.Lib.ValueIdx

noncomputable section

open scoped BigOperators

namespace Idealize.ShloMosaic.DotPlain

open Idealize.ShloMosaic Idealize.ShloMosaic.ValueIdx

variable {M K N : Nat} (d : DotDims ⟨2, ![M, K]⟩ ⟨2, ![K, N]⟩ ⟨2, ![M, N]⟩)

/-- The dimension numbers are those of a plain product: [1] × [0] contracted, [0] and [1] kept, no batch axes. -/
structure IsPlain : Prop where
  lc : d.lhsContracting = [1]
  rc : d.rhsContracting = [0]
  ln : d.lhsNonContracting = [0]
  rn : d.rhsNonContracting = [1]
  lb : d.lhsBatch = []
  rb : d.rhsBatch = []

variable {d}

theorem rank_one (h : IsPlain d) : d.contr.rank = 1 := by rw [d.rank_contr, h.lc]; rfl

theorem size_zero (h : IsPlain d) : d.contr.size ⟨0, by rw [rank_one h]; exact Nat.one_pos⟩ = K := by
  rw [d.size_contr 0 (by rw [h.lc]; exact Nat.one_pos)]
  have e : d.lhsContracting[0]'(by rw [h.lc]; exact Nat.one_pos) = (1 : Fin 2) := by simp [h.lc]
  rw [e]; rfl

/-- The contraction positions are the numbers below the shared extent. -/
def pos (h : IsPlain d) : d.contr.Idx ≃ Fin K := contrEquiv1 d K (rank_one h) (size_zero h)

private theorem val_congr {n : Nat} {s : Fin n → Nat} (j : (i : Fin n) → Fin (s i)) :
    ∀ (p q : Nat) (hp : p < n) (hq : q < n), p = q → (j ⟨p, hp⟩).val = (j ⟨q, hq⟩).val :=
  fun p q hp hq e => by subst e; rfl

theorem lhsIdx_row (h : IsPlain d) (j : (⟨2, ![M, N]⟩ : Shape).Idx) (k : d.contr.Idx) :
    (d.lhsIdx j k 0).val = (j 0).val := by
  have hb : (0 : Fin 2) ∉ d.lhsBatch := by rw [h.lb]; exact List.not_mem_nil
  have hn : (0 : Fin 2) ∈ d.lhsNonContracting := by rw [h.ln]; exact List.mem_singleton.mpr rfl
  unfold DotDims.lhsIdx
  rw [dif_neg hb, dif_pos hn]
  simp only [Fin.val_cast]
  exact val_congr j _ _ _ _ (by simp [h.lb, h.ln])

theorem lhsIdx_col (h : IsPlain d) (j : (⟨2, ![M, N]⟩ : Shape).Idx) (k : d.contr.Idx) :
    (d.lhsIdx j k 1).val = (pos h k).val := by
  rw [d.lhsIdx_val_of_single h.lc j k]; rfl

theorem rhsIdx_row (h : IsPlain d) (j : (⟨2, ![M, N]⟩ : Shape).Idx) (k : d.contr.Idx) :
    (d.rhsIdx j k 0).val = (pos h k).val := by
  rw [d.rhsIdx_val_of_single h.rc j k]; rfl

theorem rhsIdx_col (h : IsPlain d) (j : (⟨2, ![M, N]⟩ : Shape).Idx) (k : d.contr.Idx) :
    (d.rhsIdx j k 1).val = (j 1).val := by
  have hb : (1 : Fin 2) ∉ d.rhsBatch := by rw [h.rb]; exact List.not_mem_nil
  have hn : (1 : Fin 2) ∈ d.rhsNonContracting := by rw [h.rn]; exact List.mem_singleton.mpr rfl
  unfold DotDims.rhsIdx
  rw [dif_neg hb, dif_pos hn]
  simp only [Fin.val_cast]
  exact val_congr j _ _ _ _ (by simp [h.lb, h.ln, h.rn])

theorem lhsIdx_eq (h : IsPlain d) (j : (⟨2, ![M, N]⟩ : Shape).Idx) (k : d.contr.Idx) :
    d.lhsIdx j k = ix2 (j 0) (pos h k) := by
  funext a; apply Fin.ext
  match a with
  | ⟨0, _⟩ => exact lhsIdx_row h j k
  | ⟨1, _⟩ => exact lhsIdx_col h j k

theorem rhsIdx_eq (h : IsPlain d) (j : (⟨2, ![M, N]⟩ : Shape).Idx) (k : d.contr.Idx) :
    d.rhsIdx j k = ix2 (pos h k) (j 1) := by
  funext a; apply Fin.ext
  match a with
  | ⟨0, _⟩ => exact rhsIdx_row h j k
  | ⟨1, _⟩ => exact rhsIdx_col h j k

/-- THE CONTRACTION SUM of a plain product is the sum over k below the shared extent of l(i, k) · r(k, q). -/
theorem sum_eq (h : IsPlain d) (l : (⟨2, ![M, K]⟩ : Shape).Idx → EReal) (r : (⟨2, ![K, N]⟩ : Shape).Idx → EReal)
    (j : (⟨2, ![M, N]⟩ : Shape).Idx) :
    ∑ k : d.contr.Idx, l (d.lhsIdx j k) * r (d.rhsIdx j k) = ∑ k : Fin K, l (ix2 (j 0) k) * r (ix2 k (j 1)) := by
  rw [← Equiv.sum_comp (pos h) (fun k : Fin K => l (ix2 (j 0) k) * r (ix2 k (j 1)))]
  exact Finset.sum_congr rfl fun k _ => by rw [lhsIdx_eq h j k, rhsIdx_eq h j k]; rfl

/-- A matrix unit product into a zero accumulator, at the ideal instance and at an index. -/
theorem matmul_zero_apply (h : IsPlain d) (prec : Option ContractPrecision) {φ₁ φ₂ : FTy}
    (l : FVec Ideal ⟨2, ![M, K]⟩ φ₁) (r : FVec Ideal ⟨2, ![K, N]⟩ φ₂) (j : (⟨2, ![M, N]⟩ : Shape).Idx) :
    matmul d prec l r (constant (F := Ideal) ⟨2, ![M, N]⟩ .f32 0x00000000#32) j = ∑ k : Fin K, l (ix2 (j 0) k) * r (ix2 k (j 1)) :=
  (Ideal.matmul_constant_zero_apply d prec l r j).trans (sum_eq h l r j)

/-- A host dot product, at the ideal instance and at an index. -/
theorem dotGeneral_apply (h : IsPlain d) (prec : Option ContractPrecision) {φ₁ φ₂ : FTy}
    (l : FVec Ideal ⟨2, ![M, K]⟩ φ₁) (r : FVec Ideal ⟨2, ![K, N]⟩ φ₂) (j : (⟨2, ![M, N]⟩ : Shape).Idx) :
    Host.dotGeneral d prec l r j = ∑ k : Fin K, l (ix2 (j 0) k) * r (ix2 k (j 1)) := by
  unfold Host.dotGeneral
  exact (Ideal.dotGeneral_apply d prec _ l r j).trans (sum_eq h l r j)

end Idealize.ShloMosaic.DotPlain

end
-- ==== Proof.LibRowReduce.lean ====
/-
  A matrix reduced along its rows and the result put back beside every entry, read at an index.

  A kernel that normalises the rows of an [a, b] matrix (a softmax, a layer norm over the last axis) reduces it over
  axis 1 to a vector [a], casts the vector to a column [a, 1] and broadcasts the column to [a, b]. At the ideal
  instance and at position (i, c): the broadcast column reads the column at (i, 0), the column reads the vector at i,
  and the vector at i is the sum, or the maximum from the accumulator's value, over k of the matrix at (i, k) — the
  reduced index i with k put back on the dropped axis is (i, k).
-/
import Idealize.ShloMosaic.PureOps.Ideal.Laws
import Idealize.ShloMosaic.Lib.Pipeline.Value
import Idealize.ShloMosaic.Lib.ValueIdx

noncomputable section

open scoped BigOperators

namespace Idealize.ShloMosaic.RowReduce

open Idealize.ShloMosaic Idealize.ShloMosaic.ValueIdx

variable {α : Type}

/-- An [a] vector cast to an [a, 1] column reads, at (i, u), the vector at i, whatever the unit coordinate u. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An [a, 1] column broadcast to [a, b] reads, at (i, c), the column at (i, 0). -/
theorem broadcastTo_a1_ab_apply {a b : ℕ} (v : (⟨2, ![a, 1]⟩ : Shape).Idx → α) (h : (⟨2, ![a, 1]⟩ : Shape).Broadcasts ⟨2, ![a, b]⟩)
    (i : Fin a) (c : Fin b) : broadcastTo ⟨2, ![a, b]⟩ v h (ix2 i c) = v (ix2 i (0 : Fin 1)) := by
  refine broadcastTo_apply v h (ix2 i c) (ix2 i (0 : Fin 1)) fun ax => ?_
  match ax with
  | ⟨0, _⟩ =>
    show i.val = if a = 1 then 0 else i.val
    split
    · have := i.isLt; omega
    · rfl
  | ⟨1, _⟩ => rfl

/-- The reduced index i with k put back on the dropped axis 1 is (i, k). -/
theorem lift_row {a b : ℕ} (h : (⟨2, ![a, b]⟩ : Shape).Reduces [1] (⟨1, ![a]⟩ : Shape)) (i : Fin a)
    (k : Fin ((⟨2, ![a, b]⟩ : Shape).size 1)) : h.lift (ix1 i) k = ix2 i (⟨k.val, k.isLt⟩ : Fin b) := by
  funext c; apply Fin.ext
  fin_cases c <;> rfl

/-- A sum over the rows' entries: at i, the sum over k of the matrix at (i, k). -/
theorem rowSum_apply {a b : ℕ} {φ : FTy} (src : FVec Ideal ⟨2, ![a, b]⟩ φ) (acc : BitVec φ.bits)
    (h : (⟨2, ![a, b]⟩ : Shape).Reduces [1] (⟨1, ![a]⟩ : Shape)) (hφ : FKind.Formats φ) (hacc : acc = FKind.add.neutral φ hφ)
    (i : Fin a) :
    multiReduction .add [1] ⟨1, ![a]⟩ src acc h hφ hacc (ix1 i) = ∑ k : Fin b, src (ix2 i k) :=
  (Ideal.multiReduction_add_single src acc h hφ hacc (ix1 i)).trans
    (Finset.sum_congr rfl fun k _ => congrArg src (lift_row h i k))

/-- A maximum over the rows' entries: at i, the maximum from the accumulator's value over k of the matrix at (i, k). -/
theorem rowMax_apply {a b : ℕ} {φ : FTy} (src : FVec Ideal ⟨2, ![a, b]⟩ φ) (acc : BitVec φ.bits)
    (h : (⟨2, ![a, b]⟩ : Shape).Reduces [1] (⟨1, ![a]⟩ : Shape)) (hφ : FKind.Formats φ) (hacc : acc = FKind.maximumf.neutral φ hφ)
    (i : Fin a) :
    multiReduction .maximumf [1] ⟨1, ![a]⟩ src acc h hφ hacc (ix1 i)
      = (Finset.univ : Finset (Fin b)).fold max (Ideal.ofBits φ acc) (fun k => src (ix2 i k)) :=
  (Ideal.multiReduction_maximumf_single src acc h hφ hacc (ix1 i)).trans
    (congrArg (fun f => Finset.fold max (Ideal.ofBits φ acc) f Finset.univ) (funext fun k => congrArg src (lift_row h i k)))

end Idealize.ShloMosaic.RowReduce

end
-- ==== Proof.KernelRow.lean ====
/-
  The kernel body's stored value is the specification's row function of the three loaded blocks.

  One grid point loads a block of 512 query rows and the whole 4096 rows of keys and of values of one batch, each with
  a leading unit axis. Written as pieces: the scores (the product contracting the last axis of both operands, times
  64), the tops (each row's maximum from minus infinity), the weights (the exponential of score minus top, the top put
  back beside every score through a column), the totals (each row's sum of weights), the normalised weights (weight
  over total, again through a column), and the plain product of the normalised weights with the values. At row r and
  feature d of the stored block that is the row function of query row r of the block against the loaded keys and values.
-/
import proofs.«159047_j19756849561949_1_alg».proof.Proof.Gen.KernelIdeal.Skeleton
import proofs.«159047_j19756849561949_1_alg».proof.Proof.RowAttention
import proofs.«159047_j19756849561949_1_alg».proof.Proof.LibDotNT
import proofs.«159047_j19756849561949_1_alg».proof.Proof.LibDotPlain
import proofs.«159047_j19756849561949_1_alg».proof.Proof.LibRowReduce
import Idealize.ShloMosaic.Lib.ValueLayout

noncomputable section

open scoped BigOperators

namespace Cert.KernelIdeal.RowValue

open Cert.KernelIdeal Cert.KernelIdeal.Gen Idealize.ShloMosaic Idealize.ShloMosaic.ValueIdx
open Cert.Attn

/-- The first product contracts the last axis of both operands. -/
theorem scoreDims : DotNT.IsNT dot_S512x64_S4096x64_S512x4096_1_1_0_0_n_n := ⟨rfl, rfl, rfl, rfl, rfl, rfl⟩

/-- The second product is a plain matrix product. -/
theorem outDims : DotPlain.IsPlain dot_S512x4096_S4096x64_S512x64_1_0_0_1_n_n := ⟨rfl, rfl, rfl, rfl, rfl, rfl⟩

variable (x0 : FVec Ideal S1x512x64 .f32) (x1 x2 : FVec Ideal S1x4096x64 .f32)

/-! ## The body's value in pieces -/

/-- The block of scaled scores, [512, 4096]. -/
def scores : FVec Ideal S512x4096 .f32 :=
  mulf (matmul dot_S512x64_S4096x64_S512x4096_1_1_0_0_n_n none (shapeCast S512x64 x0 shapeCasts_S1x512x64_S512x64)
      (shapeCast S4096x64 x1 shapeCasts_S1x4096x64_S4096x64) (constant (F := Ideal) S512x4096 .f32 0x00000000#32))
    (broadcast S512x4096 (Scalar.ofBits (F := Ideal) .f32 0x42800000#32))

/-- Each row's top score, [512]. -/
def tops : FVec Ideal S512 .f32 :=
  multiReduction .maximumf [1] S512 (scores x0 x1) 0xFF800000#32 reduces_S512x4096_S512 (.inl rfl) rfl

/-- The weights, [512, 4096]. -/
def weights : FVec Ideal S512x4096 .f32 :=
  exp (subf (scores x0 x1)
    (broadcastTo S512x4096 (shapeCast S512x1 (tops x0 x1) shapeCasts_S512_S512x1) broadcasts_S512x1_S512x4096))

/-- Each row's total weight, [512]. -/
def totals : FVec Ideal S512 .f32 :=
  multiReduction .add [1] S512 (weights x0 x1) 0x00000000#32 reduces_S512x4096_S512 (.inl rfl) rfl

/-- The normalised weights, [512, 4096]. -/
def probs : FVec Ideal S512x4096 .f32 :=
  divf (weights x0 x1)
    (broadcastTo S512x4096 (shapeCast S512x1 (totals x0 x1) shapeCasts_S512_S512x1) broadcasts_S512x1_S512x4096)

/-- The stored value is the plain product of the normalised weights with the values, a leading unit axis added. -/
theorem stored_eq : k0_pay1 (F := Ideal) x0 x1 x2
    = shapeCast S1x512x64 (matmul dot_S512x4096_S4096x64_S512x64_1_0_0_1_n_n none (probs x0 x1)
        (shapeCast S4096x64 x2 shapeCasts_S1x4096x64_S4096x64) (constant (F := Ideal) S512x64 .f32 0x00000000#32))
      shapeCasts_S512x64_S1x512x64 := rfl

/-! ## The pieces at an index -/

/-- The score of key m for query row r of the block. -/
theorem scores_at (r : Fin 512) (m : Fin 4096) :
    scores x0 x1 (ix2 r m) = rowScore (fun d => x0 (ix3 (0 : Fin 1) r d)) (fun m d => x1 (ix3 (0 : Fin 1) m d)) m := by
  unfold scores rowScore
  refine congrArg₂ (· * ·) ?_ rfl
  refine (DotNT.matmul_zero_apply scoreDims none _ _ (ix2 r m)).trans ?_
  refine Finset.sum_congr rfl fun d _ => ?_
  exact congrArg₂ (· * ·) (shapeCast_1ab_ab_apply x0 _ r d) (shapeCast_1ab_ab_apply x1 _ m d)

/-- The top of query row r. -/
theorem tops_at (r : Fin 512) :
    tops x0 x1 (ix1 r) = rowTop (fun d => x0 (ix3 (0 : Fin 1) r d)) (fun m d => x1 (ix3 (0 : Fin 1) m d)) := by
  unfold tops rowTop
  refine (RowReduce.rowMax_apply (scores x0 x1) _ _ _ _ r).trans ?_
  exact congrArg (fun f => Finset.fold max (Ideal.ofBits .f32 0xFF800000#32) f Finset.univ)
    (funext fun m => scores_at x0 x1 r m)

/-- The weight of key m for query row r. -/
theorem weights_at (r : Fin 512) (m : Fin 4096) :
    weights x0 x1 (ix2 r m) = rowWeight (fun d => x0 (ix3 (0 : Fin 1) r d)) (fun m d => x1 (ix3 (0 : Fin 1) m d)) m := by
  unfold weights rowWeight
  show Ideal.exp (scores x0 x1 (ix2 r m)
    - broadcastTo S512x4096 (shapeCast S512x1 (tops x0 x1) shapeCasts_S512_S512x1) broadcasts_S512x1_S512x4096 (ix2 r m)) = _
  rw [scores_at, RowReduce.broadcastTo_a1_ab_apply, RowReduce.shapeCast_a_a1_apply, tops_at]

/-- The total weight of query row r. -/
theorem totals_at (r : Fin 512) :
    totals x0 x1 (ix1 r)
      = ∑ m : Fin 4096, rowWeight (fun d => x0 (ix3 (0 : Fin 1) r d)) (fun m d => x1 (ix3 (0 : Fin 1) m d)) m := by
  unfold totals
  refine (RowReduce.rowSum_apply (weights x0 x1) _ _ _ _ r).trans ?_
  exact Finset.sum_congr rfl fun m _ => weights_at x0 x1 r m

/-- The normalised weight of key m for query row r. -/
theorem probs_at (r : Fin 512) (m : Fin 4096) :
    probs x0 x1 (ix2 r m)
      = Ideal.div (rowWeight (fun d => x0 (ix3 (0 : Fin 1) r d)) (fun m d => x1 (ix3 (0 : Fin 1) m d)) m)
          (∑ m' : Fin 4096, rowWeight (fun d => x0 (ix3 (0 : Fin 1) r d)) (fun m d => x1 (ix3 (0 : Fin 1) m d)) m') := by
  unfold probs
  show Ideal.div (weights x0 x1 (ix2 r m))
    (broadcastTo S512x4096 (shapeCast S512x1 (totals x0 x1) shapeCasts_S512_S512x1) broadcasts_S512x1_S512x4096 (ix2 r m)) = _
  rw [weights_at, RowReduce.broadcastTo_a1_ab_apply, RowReduce.shapeCast_a_a1_apply, totals_at]

/-- THE STORED VALUE at (u, r, d): the row function of query row r of the block against the loaded keys and values. -/
theorem stored_at (u : Fin 1) (r : Fin 512) (d : Fin 64) :
    k0_pay1 (F := Ideal) x0 x1 x2 (ix3 u r d)
      = rowOut (fun d => x0 (ix3 (0 : Fin 1) r d)) (fun m d => x1 (ix3 (0 : Fin 1) m d))
          (fun m d => x2 (ix3 (0 : Fin 1) m d)) d := by
  rw [stored_eq]
  refine (shapeCast_ab_1ab_apply _ _ u r d).trans ?_
  refine (DotPlain.matmul_zero_apply outDims none _ _ (ix2 r d)).trans ?_
  unfold rowOut
  refine Finset.sum_congr rfl fun m _ => ?_
  exact congrArg₂ (· * ·) (probs_at x0 x1 r m) (shapeCast_1ab_ab_apply x2 _ m d)

end Cert.KernelIdeal.RowValue

end
-- ==== Proof.KernelArray.lean ====
/-
  From blocks to the array: after the kernel's run the result array is the specification of the argument arrays.

  The grid has 4 · 8 points; point t handles batch b = t / 8 and the tile of query rows 512·qi … 512·qi + 511 with
  qi = t mod 8. Its query block and its result block sit at block index (b, qi, 0) of their arrays, its key and value
  blocks at (b, 0, 0): the whole batch. So entry (u, r, d) of the result block is array index (b, 512·qi + r, d); the
  query block's row r is the queries' row 512·qi + r of batch b, and the key and value blocks are the keys and values
  of batch b. The value the body stores at (u, r, d) is the row function of those, which is the specification at
  (b, 512·qi + r, d). Every array index lies in the block of the point (its batch, its row divided by 512), so the
  blocks cover the array and the array ends holding the specification.
-/
import proofs.«159047_j19756849561949_1_alg».proof.Proof.Gen.KernelIdeal.Value
import proofs.«159047_j19756849561949_1_alg».proof.Proof.KernelRow

noncomputable section

open Idealize.ShloMosaic Idealize.ShloMosaic.TcCoe Idealize.SL.Sem
open Idealize.ShloMosaic.Pipeline (Dat)

namespace Cert.Attn

/-- The row function of equal rows, keys and values is equal. -/
theorem rowOut_congr {Q Q' : Fin 64 → EReal} {K K' V V' : Fin 4096 → Fin 64 → EReal} (hQ : Q = Q') (hK : K = K')
    (hV : V = V') (d : Fin 64) : rowOut Q K V d = rowOut Q' K' V' d := by
  subst hQ hK hV; rfl

end Cert.Attn

namespace Cert.KernelIdeal.ArrayValue

open Cert.KernelIdeal Cert.KernelIdeal.Gen Cert.KernelIdeal.Value Idealize.ShloMosaic.ValueIdx
open Cert.Attn

variable (m : (ℓ : Loc nD τ sig) → Buf (Elt Ideal) ℓ) (ρ : Dev nD → PrngReg)

theorem zero_offsets : (![0, 0, 0] : Fin 3 → Nat) = fun _ => 0 := funext fun a => by fin_cases a <;> rfl

/-- Where each window's block sits at point t, decided over the 32 points: the result block's index is inside
    [4, 8, 1]; the query block has the same index; the key and value blocks have the batch and zeros. -/
theorem block_position : ∀ t : Fin cfg0.N,
    (win0_3.index t (0 : Fin 3) < 4 ∧ win0_3.index t (1 : Fin 3) < 8 ∧ win0_3.index t (2 : Fin 3) = 0)
    ∧ (win0_0.index t (0 : Fin 3) = win0_3.index t (0 : Fin 3) ∧ win0_0.index t (1 : Fin 3) = win0_3.index t (1 : Fin 3)
        ∧ win0_0.index t (2 : Fin 3) = 0)
    ∧ (win0_1.index t (0 : Fin 3) = win0_3.index t (0 : Fin 3) ∧ win0_1.index t (1 : Fin 3) = 0 ∧ win0_1.index t (2 : Fin 3) = 0)
    ∧ (win0_2.index t (0 : Fin 3) = win0_3.index t (0 : Fin 3) ∧ win0_2.index t (1 : Fin 3) = 0 ∧ win0_2.index t (2 : Fin 3) = 0) :=
  (by decide +kernel : ∀ t : Fin grid0.N, _)

/-- Every (batch, tile) is some point's result block. -/
theorem block_onto : ∀ (b : Fin 4) (qi : Fin 8), ∃ t : Fin cfg0.N, win0_3.index t = ![b.val, qi.val, 0] :=
  (by decide +kernel : ∀ (b : Fin 4) (qi : Fin 8), ∃ t : Fin grid0.N, win0_3.index t = ![b.val, qi.val, 0])

/-! ## The input blocks at coordinates -/

/-- The query block at (u, r, d) is the queries at (b, n, d), n the tile's row r. -/
theorem queries_at (c : Dev nD) (t : Fin cfg0.N) (u : Fin 1) (r : Fin 512) (d : Fin 64) (b : Fin 4) (n : Fin 4096)
    (hb : b.val = win0_3.index t (0 : Fin 3)) (hn : n.val = win0_3.index t (1 : Fin 3) * 512 + r.val) :
    (iblk m c 0 t : FVec Ideal S1x512x64 .f32) (ix3 u r d) = (V m c main_arg0 : S4x4096x64.Idx → EReal) (ix3 b n d) := by
  obtain ⟨-, ⟨e0, e1, e2⟩, -, -⟩ := block_position t
  unfold iblk
  rw [View.read_apply]
  show V m c main_arg0 _ = V m c main_arg0 _
  congr 1
  funext a
  apply Fin.ext
  match a with
  | ⟨0, _⟩ => show win0_0.index t (0 : Fin 3) * 1 + 1 * u.val = b.val; have := u.isLt; omega
  | ⟨1, _⟩ => show win0_0.index t (1 : Fin 3) * 512 + 1 * r.val = n.val; omega
  | ⟨2, _⟩ => show win0_0.index t (2 : Fin 3) * 64 + 1 * d.val = d.val; omega

/-- The key block at (u, k, d) is the keys at (b, k, d). -/
theorem keys_at (c : Dev nD) (t : Fin cfg0.N) (u : Fin 1) (k : Fin 4096) (d : Fin 64) (b : Fin 4)
    (hb : b.val = win0_3.index t (0 : Fin 3)) :
    (iblk m c 1 t : FVec Ideal S1x4096x64 .f32) (ix3 u k d) = (V m c main_arg1 : S4x4096x64.Idx → EReal) (ix3 b k d) := by
  obtain ⟨-, -, ⟨e0, e1, e2⟩, -⟩ := block_position t
  unfold iblk
  rw [View.read_apply]
  show V m c main_arg1 _ = V m c main_arg1 _
  congr 1
  funext a
  apply Fin.ext
  match a with
  | ⟨0, _⟩ => show win0_1.index t (0 : Fin 3) * 1 + 1 * u.val = b.val; have := u.isLt; omega
  | ⟨1, _⟩ => show win0_1.index t (1 : Fin 3) * 4096 + 1 * k.val = k.val; omega
  | ⟨2, _⟩ => show win0_1.index t (2 : Fin 3) * 64 + 1 * d.val = d.val; omega

/-- The value block at (u, k, d) is the values at (b, k, d). -/
theorem values_at (c : Dev nD) (t : Fin cfg0.N) (u : Fin 1) (k : Fin 4096) (d : Fin 64) (b : Fin 4)
    (hb : b.val = win0_3.index t (0 : Fin 3)) :
    (iblk m c 2 t : FVec Ideal S1x4096x64 .f32) (ix3 u k d) = (V m c main_arg2 : S4x4096x64.Idx → EReal) (ix3 b k d) := by
  obtain ⟨-, -, -, ⟨e0, e1, e2⟩⟩ := block_position t
  unfold iblk
  rw [View.read_apply]
  show V m c main_arg2 _ = V m c main_arg2 _
  congr 1
  funext a
  apply Fin.ext
  match a with
  | ⟨0, _⟩ => show win0_2.index t (0 : Fin 3) * 1 + 1 * u.val = b.val; have := u.isLt; omega
  | ⟨1, _⟩ => show win0_2.index t (1 : Fin 3) * 4096 + 1 * k.val = k.val; omega
  | ⟨2, _⟩ => show win0_2.index t (2 : Fin 3) * 64 + 1 * d.val = d.val; omega

/-! ## What a point writes back -/

/-- WHAT POINT t WRITES BACK is block t of the specification of the argument arrays as the region finds them. -/
theorem flushed_eq (c : Dev nD) (t : Fin cfg0.N) :
    (dats m 0 c).flushed 3 t
      = ((cfg0.win 3).blk t).view.read (Elt Ideal) (attention (V m c main_arg0) (V m c main_arg1) (V m c main_arg2)) := by
  rw [Value.flushed3]
  unfold out0_3
  rw [View.canon_unit_zero zero_offsets]
  simp only [View.ld_unit_zero (S := S1x512x64) zero_offsets, View.ld_unit_zero (S := S1x4096x64) zero_offsets]
  obtain ⟨⟨h0, h1, h2⟩, -, -, -⟩ := block_position t
  funext j
  obtain ⟨u, r, d, rfl⟩ : ∃ (u : Fin 1) (r : Fin 512) (d : Fin 64), j = ix3 u r d := ⟨j 0, j 1, j 2, eq_ix3 j⟩
  have hu : u.val = 0 := by omega
  have hr : r.val < 512 := r.isLt
  have hemb : ((cfg0.win 3).blk t).view.emb (ix3 u r d)
      = ix3 (⟨win0_3.index t (0 : Fin 3), h0⟩ : Fin 4) (⟨win0_3.index t (1 : Fin 3) * 512 + r.val, by omega⟩ : Fin 4096) d := by
    funext a
    apply Fin.ext
    match a with
    | ⟨0, _⟩ => show win0_3.index t (0 : Fin 3) * 1 + 1 * u.val = win0_3.index t (0 : Fin 3); omega
    | ⟨1, _⟩ => show win0_3.index t (1 : Fin 3) * 512 + 1 * r.val = win0_3.index t (1 : Fin 3) * 512 + r.val; omega
    | ⟨2, _⟩ => show win0_3.index t (2 : Fin 3) * 64 + 1 * d.val = d.val; omega
  show k0_pay1 (F := Ideal) (iblk m c 0 t) (iblk m c 1 t) (iblk m c 2 t) (ix3 u r d)
    = attention (V m c main_arg0) (V m c main_arg1) (V m c main_arg2) (((cfg0.win 3).blk t).view.emb (ix3 u r d))
  rw [hemb]
  refine (RowValue.stored_at (iblk m c 0 t) (iblk m c 1 t) (iblk m c 2 t) u r d).trans ?_
  exact rowOut_congr
    (funext fun dd => queries_at m c t 0 r dd _ _ rfl rfl)
    (funext fun k => funext fun dd => keys_at m c t 0 k dd _ rfl)
    (funext fun k => funext fun dd => values_at m c t 0 k dd _ rfl) d

/-! ## The cover -/

/-- An array index is in point t's block iff each coordinate is in the block's range on its axis. -/
theorem mem_blk (t : Fin cfg0.N) (i : S4x4096x64.Idx) :
    i ∈ ((cfg0.win 3).blk t).view.set
      ↔ ∀ a : Fin 3, win0_3.index t a * S1x512x64.size a ≤ (i a).val
          ∧ (i a).val < win0_3.index t a * S1x512x64.size a + S1x512x64.size a := by
  show i ∈ ((View.whole main_v0).slice (win0_3.rect t)).set ↔ _
  rw [View.set_slice_whole, Rect.mem_set_unit]
  exact Iff.rfl

/-- Every array index is in the block of the point of its batch and of its row's tile. -/
theorem covered (i : S4x4096x64.Idx) :
    ∃ t : Fin cfg0.N, (cfg0.win 3).flush t = true ∧ i ∈ ((cfg0.win 3).blk t).view.set := by
  have hi0 : (i 0).val < 4 := (i 0).isLt
  have hi1 : (i 1).val < 4096 := (i 1).isLt
  have hi2 : (i 2).val < 64 := (i 2).isLt
  obtain ⟨t, ht⟩ := block_onto ⟨(i 0).val, hi0⟩ ⟨(i 1).val / 512, by omega⟩
  have q0 : win0_3.index t (0 : Fin 3) = (i 0).val := congrFun ht 0
  have q1 : win0_3.index t (1 : Fin 3) = (i 1).val / 512 := congrFun ht 1
  have q2 : win0_3.index t (2 : Fin 3) = 0 := congrFun ht 2
  refine ⟨t, flush0_3 t, ?_⟩
  rw [mem_blk]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 512 ≤ (i 1).val ∧ (i 1).val < win0_3.index t (1 : Fin 3) * 512 + 512; omega
  | ⟨2, _⟩ => show win0_3.index t (2 : Fin 3) * 64 ≤ (i 2).val ∧ (i 2).val < win0_3.index t (2 : Fin 3) * 64 + 64; omega

/-! ## The array and the run -/

/-- THE RESULT ARRAY after the run is the specification of the argument arrays. -/
theorem final (c : Dev nD) :
    (dats m 0 c).arrAt 3 cfg0.N
      = attention (m ((c : Thread nD τ).loc main_arg0)) (m ((c : Thread nD τ).loc main_arg1)) (m ((c : Thread nD τ).loc main_arg2)) :=
  (dats m 0 c).arrAt_eq_of_cover 3 _ (fun t _ => flushed_eq m c t) covered

/-- The kernel's run, read: the result array at the specification of the arguments, the arguments unchanged. -/
theorem run : θ_run defs (onTc (τ := τ) (main (F := Ideal))) ⟨m, fun _ => 0, ρ⟩ fun r => ∀ c : Dev nD,
      r.2.mem ((c : Thread nD τ).loc main_v0)
        = attention (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.ArrayValue

end
-- ==== Proof.Scale.lean ====
/-
  The three float patterns the two programs differ by, as the extended reals they denote.

  The kernel multiplies the scores by the pattern of 64.0; the reference multiplies them by the square root of the
  pattern of 4096.0. The square root of 4096 is 64 exactly (64 · 64 = 4096), so the two scales are one extended real.
  The reference also takes the maximum of the row maximum with the pattern of minus infinity, which is the bottom of
  the extended reals, so that maximum is the row maximum itself.
-/
import Idealize.ShloMosaic.PureOps.Ideal

noncomputable section

namespace Cert.Attn

open Idealize.ShloMosaic

/-- The pattern of 4096.0 denotes the real 4096. -/
theorem ofBits_4096 : Ideal.ofBits .f32 0x45800000#32 = ((4096 : ℝ) : EReal) := by
  simp [Ideal.ofBits, Ideal.ieee, -EReal.coe_mul]; norm_num

/-- The pattern of 64.0 denotes the real 64. -/
theorem ofBits_64 : Ideal.ofBits .f32 0x42800000#32 = ((64 : ℝ) : EReal) := by
  simp [Ideal.ofBits, Ideal.ieee, -EReal.coe_mul]; norm_num

/-- The real square root of 4096 is 64. -/
theorem real_sqrt_4096 : Real.sqrt 4096 = 64 := by
  rw [show (4096 : ℝ) = 64 * 64 by norm_num]
  exact Real.sqrt_mul_self (by norm_num)

/-- So the reference's scale, the square root of the pattern of 4096.0, is the kernel's scale, the pattern of 64.0. -/
theorem sqrt_4096 : Ideal.sqrt (Ideal.ofBits .f32 0x45800000#32) = Ideal.ofBits .f32 0x42800000#32 := by
  rw [ofBits_4096, ofBits_64, Ideal.sqrt_coe, if_neg (by norm_num), real_sqrt_4096]

/-- The pattern of minus infinity is the bottom of the extended reals. -/
theorem ofBits_negInf : Ideal.ofBits .f32 0xFF800000#32 = (⊥ : EReal) := by
  simp [Ideal.ofBits, Ideal.ieee]

/-- The maximum with minus infinity on the left is the other operand. -/
theorem max_negInf (y : EReal) : max (Ideal.ofBits .f32 0xFF800000#32) y = y := by
  rw [ofBits_negInf]; exact max_eq_right bot_le

end Cert.Attn

end
-- ==== Proof.ReferenceRow.lean ====
/-
  The reference computes the specification.

  The reference's operations are read one at a time at an index written by coordinates (b, n, m) or (b, n):
  the first product at (b, n, m) is the sum over d of q(b, n, d) · k(b, m, d); multiplied by the square root of 4096,
  which is 64, it is the row's score of key m; the reduce with a maximum body over the last axis from minus infinity
  is the row's top, and the further maximum with minus infinity changes nothing; the two broadcasts put the top back
  beside every score of the row; the exponential of the difference is the weight; the sum over the last axis from
  zero is the total of the weights; the quotient is the normalised weight; and the last product at (b, n, d) is the
  sum over m of the normalised weight of m times v(b, m, d): the row function of the specification.
-/
import proofs.«159047_j19756849561949_1_alg».proof.Proof.Gen.ReferenceIdeal.Read
import proofs.«159047_j19756849561949_1_alg».proof.Proof.Scale
import proofs.«159047_j19756849561949_1_alg».proof.Proof.RowAttention

noncomputable section

open scoped BigOperators

namespace Cert.ReferenceIdeal.RefValue

open Cert.ReferenceIdeal Cert.ReferenceIdeal.Gen Cert.ReferenceIdeal.Read Idealize.ShloMosaic Idealize.ShloMosaic.ValueIdx
open Cert.Attn

variable (x0 x1 x2 : (⟨S4x4096x64, .f32⟩ : BufTy).Contents (Elt Ideal))

/-! ## The composed index functions at coordinates -/

theorem lidx1 (b : Fin 4) (n m : Fin 4096) (k : Fin 64) : lidx_main_v1 (ix3 b n m) k = ix3 b n k :=
  funext fun a => Fin.ext (by match a with | ⟨0, _⟩ => rfl | ⟨1, _⟩ => rfl | ⟨2, _⟩ => rfl)

theorem ridx1 (b : Fin 4) (n m : Fin 4096) (k : Fin 64) : ridx_main_v1 (ix3 b n m) k = ix3 b m k :=
  funext fun a => Fin.ext (by match a with | ⟨0, _⟩ => rfl | ⟨1, _⟩ => rfl | ⟨2, _⟩ => rfl)

theorem idx78 (b : Fin 4) (n m : Fin 4096) : idx_main_v7 (idx_main_v8 (ix3 b n m)) = ix2 b n :=
  funext fun a => Fin.ext (by match a with | ⟨0, _⟩ => rfl | ⟨1, _⟩ => rfl)

theorem idx1213 (b : Fin 4) (n m : Fin 4096) : idx_main_v12 (idx_main_v13 (ix3 b n m)) = ix2 b n :=
  funext fun a => Fin.ext (by match a with | ⟨0, _⟩ => rfl | ⟨1, _⟩ => rfl)

theorem idx11 (b : Fin 4) (n k : Fin 4096) : idx_main_v11 (ix2 b n) k = ix3 b n k :=
  funext fun a => Fin.ext (by match a with | ⟨0, _⟩ => rfl | ⟨1, _⟩ => rfl | ⟨2, _⟩ => rfl)

theorem lidx15 (b : Fin 4) (n : Fin 4096) (d : Fin 64) (m : Fin 4096) : lidx_main_v15 (ix3 b n d) m = ix3 b n m :=
  funext fun a => Fin.ext (by match a with | ⟨0, _⟩ => rfl | ⟨1, _⟩ => rfl | ⟨2, _⟩ => rfl)

theorem ridx15 (b : Fin 4) (n : Fin 4096) (d : Fin 64) (m : Fin 4096) : ridx_main_v15 (ix3 b n d) m = ix3 b m d :=
  funext fun a => Fin.ext (by match a with | ⟨0, _⟩ => rfl | ⟨1, _⟩ => rfl | ⟨2, _⟩ => rfl)

/-! ## The stages at coordinates -/

/-- The scaled product at (b, n, m) is the score of key m for row n of batch b. -/
theorem score_at (b : Fin 4) (n m : Fin 4096) :
    val_main_v3 (F := Ideal) x0 x1 (ix3 b n m) = rowScore (fun d => x0 (ix3 b n d)) (fun m d => x1 (ix3 b m d)) m := by
  rw [val_main_v3_apply, val_main_v1_apply, val_main_v2_apply, val_main_v0_apply, val_main_cst_apply]
  simp only [lidx1, ridx1, Ideal.mulf_def, Ideal.hostUnary_sqrt_def, Ideal.ofBits_def, sqrt_4096]
  rfl

/-- The reduce with a maximum body at (b, n) is the row's top. -/
theorem reduceMax_at (b : Fin 4) (n : Fin 4096) :
    val_main_v4 (F := Ideal) x0 x1 (ix2 b n) = rowTop (fun d => x0 (ix3 b n d)) (fun m d => x1 (ix3 b m d)) := by
  have h : S4x4096x4096.Reduces [2] S4x4096 := by decide
  unfold val_main_v4
  rw [Host.reduce_eq_fold_single FloatOps.maximumf _ _ reducesTo_S4x4096x4096_S4x4096_d2 h h_S_]
  have hf : (val_main_v3 (F := Ideal) x0 x1 ∘ h.lift (ix2 b n))
      = rowScore (fun d => x0 (ix3 b n d)) (fun m d => x1 (ix3 b m d)) := funext fun k => by
    show val_main_v3 (F := Ideal) x0 x1 (h.lift (ix2 b n) k) = _
    rw [show h.lift (ix2 b n) k = ix3 b n k from
      funext fun a => Fin.ext (by match a with | ⟨0, _⟩ => rfl | ⟨1, _⟩ => rfl | ⟨2, _⟩ => rfl)]
    exact score_at x0 x1 b n k
  rw [hf]
  rfl

/-- The further maximum with minus infinity leaves the row's top. -/
theorem top_at (b : Fin 4) (n : Fin 4096) :
    val_main_v6 (F := Ideal) x0 x1 (ix2 b n) = rowTop (fun d => x0 (ix3 b n d)) (fun m d => x1 (ix3 b m d)) := by
  rw [val_main_v6_apply, val_main_v5_apply, val_main_cst_1_apply, reduceMax_at]
  exact max_negInf _

/-- The exponential of the score below the top, at (b, n, m), is the weight of key m. -/
theorem weight_at (b : Fin 4) (n m : Fin 4096) :
    val_main_v10 (F := Ideal) x0 x1 (ix3 b n m) = rowWeight (fun d => x0 (ix3 b n d)) (fun m d => x1 (ix3 b m d)) m := by
  rw [val_main_v10_apply, val_main_v9_apply, score_at, val_main_v8_apply, val_main_v7_apply, idx78, top_at]
  rfl

/-- The sum over the last axis from zero, at (b, n), is the total of the row's weights. -/
theorem total_at (b : Fin 4) (n : Fin 4096) :
    val_main_v11 (F := Ideal) x0 x1 (ix2 b n)
      = ∑ m : Fin 4096, rowWeight (fun d => x0 (ix3 b n d)) (fun m d => x1 (ix3 b m d)) m := by
  rw [val_main_v11_apply, val_main_cst_2_apply]
  simp only [Ideal.ofBits_def, Ideal.ofBits_zero_f32, zero_add, idx11, weight_at]

/-- The quotient at (b, n, m) is the normalised weight of key m. -/
theorem prob_at (b : Fin 4) (n m : Fin 4096) :
    val_main_v14 (F := Ideal) x0 x1 (ix3 b n m)
      = Ideal.div (rowWeight (fun d => x0 (ix3 b n d)) (fun m d => x1 (ix3 b m d)) m)
          (∑ m' : Fin 4096, rowWeight (fun d => x0 (ix3 b n d)) (fun m d => x1 (ix3 b m d)) m') := by
  rw [val_main_v14_apply, weight_at, val_main_v13_apply, val_main_v12_apply, idx1213, total_at]
  rfl

/-- THE REFERENCE'S RESULT is the specification of the three argument arrays. -/
theorem reference_eq : val_main_v15 (F := Ideal) x0 x1 x2 = attention x0 x1 x2 := by
  funext i
  obtain ⟨b, n, d, rfl⟩ : ∃ (b : Fin 4) (n : Fin 4096) (d : Fin 64), i = ix3 b n d := ⟨i 0, i 1, i 2, eq_ix3 i⟩
  rw [val_main_v15_apply]
  unfold attention rowOut
  refine Finset.sum_congr rfl fun m _ => ?_
  rw [lidx15, ridx15, prob_at]

end Cert.ReferenceIdeal.RefValue

end
-- ==== Proof.lean ====
/-
  Fused softmax attention against its unfused reference, over the extended reals.

  Both programs take queries, keys and values of shape [4, 4096, 64] and return, at (b, n, d),
      the sum over m of  w(m) / (the sum over m' of w(m'))  ·  v(b, m, d),
      w(m) = exp (s(m) − the maximum over m' of s(m')),     s(m) = (the sum over e of q(b, n, e) · k(b, m, e)) · 64.
  The kernel computes it one tile of 512 query rows of one batch at a time, against that batch's keys and values; the
  reference computes whole [4, 4096, 4096] intermediates. At the ideal values a tiled matrix product into a zero
  accumulator and the host's product are the same sum, a lane reduction and the host's reduction are the same sum or
  the same maximum, the reference's scale — the square root of 4096 — is the kernel's 64, and the reference's extra
  maximum with minus infinity changes nothing. So both are the one function `Cert.Attn.attention` of the arguments,
  operation for operation: no law of arithmetic beyond that is used, and the precondition is never opened.

  Proof/RowAttention.lean states the function; Proof/ReferenceRow.lean reads the reference's operations at an index
  and finds it; Proof/KernelRow.lean reads the value the kernel body stores at an index and finds its row function;
  Proof/KernelArray.lean places the blocks in the array; Proof/Scale.lean has the three constants. The frames are the
  generated ones; the idealization rewrote nothing, so the kernel's idealization is its own text.
-/
import proofs.«159047_j19756849561949_1_alg».proof.Defs
import proofs.«159047_j19756849561949_1_alg».proof.Proof.Gen.Kernel
import proofs.«159047_j19756849561949_1_alg».proof.Proof.Gen.Kernel.Skeleton
import proofs.«159047_j19756849561949_1_alg».proof.Proof.Gen.Kernel.Launch
import proofs.«159047_j19756849561949_1_alg».proof.Proof.Gen.Kernel.Points
import proofs.«159047_j19756849561949_1_alg».proof.Proof.Gen.Kernel.Frame
import proofs.«159047_j19756849561949_1_alg».proof.Proof.Gen.KernelIdeal
import proofs.«159047_j19756849561949_1_alg».proof.Proof.Gen.KernelIdeal.Skeleton
import proofs.«159047_j19756849561949_1_alg».proof.Proof.Gen.KernelIdeal.Launch
import proofs.«159047_j19756849561949_1_alg».proof.Proof.Gen.KernelIdeal.Points
import proofs.«159047_j19756849561949_1_alg».proof.Proof.Gen.KernelIdeal.Frame
import proofs.«159047_j19756849561949_1_alg».proof.Proof.Gen.ReferenceIdeal
import proofs.«159047_j19756849561949_1_alg».proof.Proof.Gen.Pre_finite_inputs
import proofs.«159047_j19756849561949_1_alg».proof.Proof.Gen.KernelIdeal.Value
import proofs.«159047_j19756849561949_1_alg».proof.Proof.Gen.ReferenceIdeal.Run
import proofs.«159047_j19756849561949_1_alg».proof.Proof.Gen.ReferenceIdeal.Read
import proofs.«159047_j19756849561949_1_alg».proof.Proof.KernelArray
import proofs.«159047_j19756849561949_1_alg».proof.Proof.ReferenceRow
import Idealize.ShloMosaic.Adequacy
import Idealize.ShloMosaic.Init

noncomputable section

namespace Cert.Proof

open Idealize.ShloMosaic Idealize.ShloMosaic.TcCoe Idealize.SL.Sem

/-- The kernel as printed runs and leaves its arguments as they were. -/
theorem frame_kernel : Cert.frame_Kernel := fun m ρ _ => Cert.Kernel.Gen.frame m ρ

/-- So does the kernel read at the ideal values. -/
theorem frame_kernelIdeal : Cert.frame_KernelIdeal := fun m ρ _ => Cert.KernelIdeal.Gen.frame m ρ

/-- The reference runs and leaves its arguments as they were: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From arguments that agree, the kernel's result array and the reference's result both end at attention of the
    arguments: the kernel's by its blocks (Proof/KernelArray.lean), the reference's by its operations read at an index
    (Proof/ReferenceRow.lean). -/
theorem algebraic : Cert.algebraic_KernelIdeal_ReferenceIdeal := by
  intro m ρ m' ρ' _ hagree
  refine ⟨_, Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v15_eq, Cert.ReferenceIdeal.RefValue.reference_eq,
    (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
